-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S2048x64 : Shape := ⟨2, ![2048, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x64, .f32⟩
  | .hbm, ⟨4, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x2048, .f32⟩
  | .local _ .vmem, ⟨9, _⟩ => ⟨S1x1x512x2048, .f32⟩
  | .local _ .vmem, ⟨10, _⟩ => ⟨S2048x64, .bf16⟩
  | .local _ .vmem, ⟨11, _⟩ => ⟨S2048x64, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S2x16x2048x64.size a
  hwx0_3 : ∀ i : grid0.Coords, EltTy.bits .f32 = 32 ∨ (Rect.block (s := S2x16x2048x64) S1x1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S2x16x2048x2048.size a
  hwx0_4 : ∀ i : grid0.Coords, EltTy.bits .f32 = 32 ∨ (Rect.block (s := S2x16x2048x2048) S1x1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048, .f32⟩
  | .hbm, ⟨12, _⟩ => ⟨S_, .f32⟩
  | .hbm, ⟨13, _⟩ => ⟨S2x16x2048, .f32⟩
  | .hbm, ⟨14, _⟩ => ⟨S2x16x2048, .f32⟩
  | .hbm, ⟨15, _⟩ => ⟨S2x16x2048x1, .f32⟩
  | .hbm, ⟨16, _⟩ => ⟨S2x16x2048x2048, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Pieces.lean ====
/-
  What one run of the kernel body leaves behind, case by case, as the body's own arithmetic applied to the
  blocks it was handed. At the first query tile of a head the body first stores the key and value blocks
  (recast) into the two scratch buffers and then computes from what it just stored; at the other tiles it
  computes from what the scratch buffers already hold and leaves them as they are. In both cases the weights
  block is the row softmax of the scaled scores and the output block is the weights times the values.
-/
import proofs.«164477_j73151882985559_2_alg».proof.Proof.Gen.KernelIdeal.Frame
import Idealize.ShloMosaic.Lib.Pipeline.Value

set_option maxRecDepth 16384

noncomputable section

namespace Cert.Attn.Pieces

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- At a head's first tile the key scratch ends at the recast key block. -/
theorem keys_first (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x1x512x64 .f32) (x1 : Vec F S1x1x2048x64 .f32) (x2 : Vec F S1x1x2048x64 .f32) :
    sout0_A_0 c i arg3 harg3 arg4 harg4 arg5 harg5 arg6 harg6 arg7 harg7 arg8 harg8 arg9 harg9 hc0 x0 x1 x2 = k0_pay1 x1 := by
  unfold sout0_A_0
  rw [View.read_writes_eq_canon _ _ _ (scover0_A_0 c i arg3 harg3 arg4 harg4 arg5 harg5 arg6 harg6 arg7 harg7 arg8 harg8 arg9 harg9 hc0 x0 x1 x2)]
  unfold kernelRun0_A
  dsimp only
  sl_unfold_words
  rw [View.canon_unit_zero hz2]
  simp only [View.readAt_eq_ld, harg4.read_unread, View.ld_unit_zero (S := S1x1x2048x64) hz4]

/-- At a head's first tile the value scratch ends at the recast value block. -/
theorem values_first (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x1x512x64 .f32) (x1 : Vec F S1x1x2048x64 .f32) (x2 : Vec F S1x1x2048x64 .f32) :
    sout0_A_1 c i arg3 harg3 arg4 harg4 arg5 harg5 arg6 harg6 arg7 harg7 arg8 harg8 arg9 harg9 hc0 x0 x1 x2 = k0_pay2 x2 := by
  unfold sout0_A_1
  rw [View.read_writes_eq_canon _ _ _ (scover0_A_1 c i arg3 harg3 arg4 harg4 arg5 harg5 arg6 harg6 arg7 harg7 arg8 harg8 arg9 harg9 hc0 x0 x1 x2)]
  unfold kernelRun0_A
  dsimp only
  sl_unfold_words
  rw [View.canon_unit_zero hz2]
  simp only [View.readAt_eq_ld, harg5.read_unread, View.ld_unit_zero (S := S1x1x2048x64) hz4]

/-- At a head's first tile the output block is computed from the query block and the two blocks just stored. -/
theorem out_first (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x1x512x64 .f32) (x1 : Vec F S1x1x2048x64 .f32) (x2 : Vec F S1x1x2048x64 .f32) :
    out0_A_3 c i arg3 harg3 arg4 harg4 arg5 harg5 arg6 harg6 arg7 harg7 arg8 harg8 arg9 harg9 hc0 x0 x1 x2 = k0_pay5 x0 (k0_pay1 x1) (k0_pay2 x2) := by
  unfold out0_A_3
  rw [View.read_writes_eq_canon _ _ _ (cover0_A_3 c i arg3 harg3 arg4 harg4 arg5 harg5 arg6 harg6 arg7 harg7 arg8 harg8 arg9 harg9 hc0 x0 x1 x2)]
  unfold kernelRun0_A
  dsimp only
  sl_unfold_words
  rw [View.canon_unit_zero hz4, View.readCov_unit_zero (S := S2048x64) _ hz2, View.readCov_unit_zero (S := S2048x64) _ hz2]
  simp only [View.readAt_eq_ld, harg3.read_unread, harg4.read_unread, harg5.read_unread, View.ld_unit_zero (S := S1x1x2048x64) hz4, View.ld_unit_zero (S := S1x1x512x64) hz4]

/-- At a head's first tile the weights block is computed from the query block and the key block just stored. -/
theorem weights_first (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i) (x0 : Vec F S1x1x512x64 .f32) (x1 : Vec F S1x1x2048x64 .f32) (x2 : Vec F S1x1x2048x64 .f32) :
    out0_A_4 c i arg3 harg3 arg4 harg4 arg5 harg5 arg6 harg6 arg7 harg7 arg8 harg8 arg9 harg9 hc0 x0 x1 x2 = k0_pay4 x0 (k0_pay1 x1) := by
  unfold out0_A_4
  rw [View.read_writes_eq_canon _ _ _ (cover0_A_4 c i arg3 harg3 arg4 harg4 arg5 harg5 arg6 harg6 arg7 harg7 arg8 harg8 arg9 harg9 hc0 x0 x1 x2)]
  unfold kernelRun0_A
  dsimp only
  sl_unfold_words
  rw [View.canon_unit_zero hz4, View.readCov_unit_zero (S := S2048x64) _ hz2]
  simp only [View.readAt_eq_ld, harg3.read_unread, harg4.read_unread, View.ld_unit_zero (S := S1x1x2048x64) hz4, View.ld_unit_zero (S := S1x1x512x64) hz4]

/-- At a later tile the output block is computed from the query block and what the two scratch buffers hold. -/
theorem out_later (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : ¬cond0_0 i) (x0 : Vec F S1x1x512x64 .f32) (x1 : Vec F S1x1x2048x64 .f32) (x2 : Vec F S1x1x2048x64 .f32) (xs0 : Vec F S2048x64 .bf16) (xs1 : Vec F S2048x64 .bf16) :
    out0_B_3 c i arg3 harg3 arg4 harg4 arg5 harg5 arg6 harg6 arg7 harg7 arg8 harg8 arg9 harg9 hc0 x0 x1 x2 xs0 xs1 = k0_pay5 x0 xs0 xs1 := by
  unfold out0_B_3
  rw [View.read_writes_eq_canon _ _ _ (cover0_B_3 c i arg3 harg3 arg4 harg4 arg5 harg5 arg6 harg6 arg7 harg7 arg8 harg8 arg9 harg9 hc0 x0 x1 x2 xs0 xs1)]
  unfold kernelRun0_B
  dsimp only
  sl_unfold_words
  rw [View.canon_unit_zero hz4]
  simp only [View.readAt_eq_ld, harg3.read_unread, harg8.read_unread, harg9.read_unread, View.ld_unit_zero (S := S2048x64) hz2, View.ld_unit_zero (S := S1x1x512x64) hz4]

/-- At a later tile the weights block is computed from the query block and what the key scratch holds. -/
theorem weights_later (c : Dev nD) (i : grid0.Coords) (arg3 : Memref sig .tc .vmem S1x1x512x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x512x64 .f32) (harg6 : arg6.IsWhole) (arg7 : Memref sig .tc .vmem S1x1x512x2048 .f32) (harg7 : arg7.IsWhole) (arg8 : Memref sig .tc .vmem S2048x64 .bf16) (harg8 : arg8.IsWhole) (arg9 : Memref sig .tc .vmem S2048x64 .bf16) (harg9 : arg9.IsWhole) (hc0 : ¬cond0_0 i) (x0 : Vec F S1x1x512x64 .f32) (x1 : Vec F S1x1x2048x64 .f32) (x2 : Vec F S1x1x2048x64 .f32) (xs0 : Vec F S2048x64 .bf16) (xs1 : Vec F S2048x64 .bf16) :
    out0_B_4 c i arg3 harg3 arg4 harg4 arg5 harg5 arg6 harg6 arg7 harg7 arg8 harg8 arg9 harg9 hc0 x0 x1 x2 xs0 xs1 = k0_pay4 x0 xs0 := by
  unfold out0_B_4
  rw [View.read_writes_eq_canon _ _ _ (cover0_B_4 c i arg3 harg3 arg4 harg4 arg5 harg5 arg6 harg6 arg7 harg7 arg8 harg8 arg9 harg9 hc0 x0 x1 x2 xs0 xs1)]
  unfold kernelRun0_B
  dsimp only
  sl_unfold_words
  rw [View.canon_unit_zero hz4]
  simp only [View.readAt_eq_ld, harg3.read_unread, harg8.read_unread, View.ld_unit_zero (S := S2048x64) hz2, View.ld_unit_zero (S := S1x1x512x64) hz4]

end Cert.Attn.Pieces

end
-- ==== Proof.Spec.lean ====
/-
  Scaled dot-product attention on one head, as functions of the three argument arrays over the
  extended reals. A score is the inner product of a query row and a key row over the 64 features,
  times one eighth; a row of scores becomes a row of weights by the softmax, spelled the way both
  programs spell it (subtract the row's maximum, exponentiate, divide by the row's sum); a result
  row is the weighted sum of the value rows. The row's maximum is the supremum of the family, which
  is what a fold of max from minus infinity computes in any order.
-/
import Idealize.ShloMosaic.PureOps.Ideal
import Idealize.ShloMosaic.Lib.ValueIdx

noncomputable section

namespace Cert.Attn

open Idealize.ShloMosaic Idealize.ShloMosaic.ValueIdx
open scoped BigOperators

/-- The softmax of a finite family of extended reals at one position: e^(f t - sup f) over the sum of
    those exponentials. -/
def softmaxRow {n : ℕ} (f : Fin n → EReal) (t : Fin n) : EReal :=
  Ideal.div (Ideal.exp (f t - Finset.univ.sup f)) (∑ u : Fin n, Ideal.exp (f u - Finset.univ.sup f))

/-- A value below exactly the bounds of a family is the family's supremum. -/
theorem eq_sup_of_le_iff {n : ℕ} (f : Fin n → EReal) (x : EReal) (h : ∀ c, x ≤ c ↔ ∀ t, f t ≤ c) :
    x = Finset.univ.sup f :=
  eq_of_forall_ge_iff fun c => by
    rw [h c, Finset.sup_le_iff]
    exact ⟨fun hh t _ => hh t, fun hh t => hh t (Finset.mem_univ t)⟩

/-- An argument array: batch 2, 16 heads, 2048 positions, 64 features. -/
abbrev Arg : Type := (⟨4, ![2, 16, 2048, 64]⟩ : Shape).Idx → EReal

/-- The scaled score of query position s against key position t, in head (b, h). -/
def score (Q K : Arg) (b : Fin 2) (h : Fin 16) (s t : Fin 2048) : EReal :=
  (∑ d : Fin 64, Q (ix4 b h s d) * K (ix4 b h t d)) * Ideal.ofBits .f32 0x3E000000#32

/-- The attention weight of key position t for query position s. -/
def weight (Q K : Arg) (b : Fin 2) (h : Fin 16) (s t : Fin 2048) : EReal :=
  softmaxRow (fun u => score Q K b h s u) t

/-- Feature d of the attention output at query position s. -/
def attend (Q K V : Arg) (b : Fin 2) (h : Fin 16) (s : Fin 2048) (d : Fin 64) : EReal :=
  ∑ t : Fin 2048, weight Q K b h s t * V (ix4 b h t d)

/-- The weights as one array [2, 16, 2048, 2048]. -/
def weightArr (Q K : Arg) : (⟨4, ![2, 16, 2048, 2048]⟩ : Shape).Idx → EReal :=
  fun i => weight Q K (i 0) (i 1) (i 2) (i 3)

/-- The outputs as one array [2, 16, 2048, 64]. -/
def attendArr (Q K V : Arg) : (⟨4, ![2, 16, 2048, 64]⟩ : Shape).Idx → EReal :=
  fun i => attend Q K V (i 0) (i 1) (i 2) (i 3)

end Cert.Attn

end
-- ==== Proof.Scale.lean ====
/-
  The one constant on which the two programs are spelled differently: the kernel multiplies the
  scores by the literal 0.125, the reference by 1 / sqrt 64. On the extended reals sqrt 64 = 8 and
  1 / 8 = 0.125, so the two factors are one number. Also here: the bit pattern of minus infinity,
  which is the bottom of the order (both maxima start from it).
-/
import Idealize.ShloMosaic.PureOps.Ideal
import Idealize.ShloMosaic.PureOps.Ideal.Laws

noncomputable section

namespace Cert.Attn

open Idealize.ShloMosaic

/-- The literal 0x3E000000 is one eighth. -/
theorem ofBits_eighth : Ideal.ofBits .f32 0x3E000000#32 = ((1 / 8 : ℝ) : EReal) := by
  simp [Ideal.ofBits, Ideal.ieee]
  norm_cast
  norm_num

/-- The literal 0x42800000 is sixty-four. -/
theorem ofBits_64 : Ideal.ofBits .f32 0x42800000#32 = ((64 : ℝ) : EReal) := by
  simp [Ideal.ofBits, Ideal.ieee]
  norm_cast
  norm_num

/-- The literal 0x3F800000 is one. -/
theorem ofBits_one : Ideal.ofBits .f32 0x3F800000#32 = ((1 : ℝ) : EReal) := by
  simp [Ideal.ofBits, Ideal.ieee]
  norm_cast
  norm_num

/-- The literal 0xFF800000 is minus infinity. -/
theorem ofBits_neg_inf : Ideal.ofBits .f32 0xFF800000#32 = (⊥ : EReal) := by
  simp [Ideal.ofBits, Ideal.ieee]

/-- The square root of sixty-four is eight. -/
theorem sqrt_64 : Ideal.sqrt ((64 : ℝ) : EReal) = ((8 : ℝ) : EReal) := by
  show (if (64 : ℝ) < 0 then (⊥ : EReal) else ((Real.sqrt 64 : ℝ) : EReal)) = _
  rw [if_neg (by norm_num)]
  have h : Real.sqrt 64 = 8 := by
    rw [show (64 : ℝ) = 8 ^ 2 by norm_num]
    exact Real.sqrt_sq (by norm_num)
  rw [h]

/-- One over eight, by the ideal division, is one eighth. -/
theorem div_one_eight : Ideal.div ((1 : ℝ) : EReal) ((8 : ℝ) : EReal) = ((1 / 8 : ℝ) : EReal) := by
  unfold Ideal.div
  rw [if_neg (by exact_mod_cast (by norm_num : (8 : ℝ) ≠ 0))]
  rw [← EReal.coe_inv, ← EReal.coe_mul]
  norm_num

/-- The reference's factor 1 / sqrt 64 is the kernel's literal 0.125. -/
theorem ref_scale_eq :
    Ideal.div (Ideal.ofBits .f32 0x3F800000#32) (Ideal.sqrt (Ideal.ofBits .f32 0x42800000#32))
      = Ideal.ofBits .f32 0x3E000000#32 := by
  rw [ofBits_one, ofBits_64, sqrt_64, div_one_eight, ofBits_eighth]

end Cert.Attn

end
-- ==== Proof.LibUnitBlocks.lean ====
/-
  Read-at-an-index lemmas, at any extents, for the two reshapes every block of a four-axis array with
  two leading unit axes meets: [1, 1, a, b] viewed as the matrix [a, b], and a matrix [a, b] stored
  back as [1, 1, a, b]. Both keep the row-major position, so entry (i, j) of the matrix is entry
  (0, 0, i, j) of the block.
-/
import Idealize.ShloMosaic.Lib.Pipeline.Value
import Idealize.ShloMosaic.Lib.ValueIdx

namespace Cert.Lib.UnitBlocks

open Idealize.ShloMosaic Idealize.ShloMosaic.ValueIdx

variable {α : Type}

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An [a, b] array cast to [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp)

end Cert.Lib.UnitBlocks
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.LibMatmulT.lean ====
/-
  A matrix product with the right operand contracted on its LAST axis, read at an entry, over the extended reals, at any
  extents.

  The product of an `[M, K]` matrix with an `[N, K]` matrix (both contracted on their second axis, no batch axis:
  `L · Rᵀ`) accumulated into the zero matrix is, at `(p, e)`, the sum over the contracted coordinate `f` of the left
  operand at `(p, f)` times the right operand at `(e, f)`: the operand indices the product names at an output index and
  a contraction index are `(p, f)` and `(e, f)`, and the one-axis contraction index is its one coordinate.
-/
import Idealize.ShloMosaic.Lib.ValueIdx
import Idealize.ShloMosaic.PureOps.Ideal.Laws

open scoped BigOperators

noncomputable section

namespace Cert.Lib.MatmulT

open Idealize.ShloMosaic Idealize.ShloMosaic.ValueIdx

variable {M K N : ℕ}

theorem trhs_lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem trhs_lhs1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem trhs_rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem trhs_rhs1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The sum over the product's contraction index, re-indexed by the contracted coordinate. -/
theorem trhs_sum {φ₁ φ₂ : FTy} (L : FVec Ideal ⟨2, ![M, K]⟩ φ₁) (R : FVec Ideal ⟨2, ![N, K]⟩ φ₂) (p : Fin M) (e : Fin N) :
    (∑ k : (DotDims.transposedRhs M K N).contr.Idx,
        L ((DotDims.transposedRhs M K N).lhsIdx (ix2 p e) k) * R ((DotDims.transposedRhs M K N).rhsIdx (ix2 p e) k))
      = ∑ f : Fin K, L (ix2 p f) * R (ix2 e f) := by
  rw [← Equiv.sum_comp (contrEquiv1 (DotDims.transposedRhs M K N) K rfl rfl).symm]
  refine Finset.sum_congr rfl fun f _ => ?_
  have hk := contrEquiv1_symm_val (DotDims.transposedRhs M K N) K rfl rfl f
  have el : (DotDims.transposedRhs M K N).lhsIdx (ix2 p e) ((contrEquiv1 (DotDims.transposedRhs M K N) K rfl rfl).symm f) = ix2 p f :=
    funext fun a => Fin.ext (by
      match a with
      | ⟨0, _⟩ => exact trhs_lhs0 _ _
      | ⟨1, _⟩ => exact (trhs_lhs1 _ _).trans hk)
  have er : (DotDims.transposedRhs M K N).rhsIdx (ix2 p e) ((contrEquiv1 (DotDims.transposedRhs M K N) K rfl rfl).symm f) = ix2 e f :=
    funext fun a => Fin.ext (by
      match a with
      | ⟨0, _⟩ => exact trhs_rhs0 _ _
      | ⟨1, _⟩ => exact (trhs_rhs1 _ _).trans hk)
  rw [el, er]

/-- An `[M, K]` by `[N, K]` product (right operand contracted on its last axis) into the zero accumulator, at `(p, e)`. -/
theorem matmul_trhs_zero_apply {φ₁ φ₂ : FTy} (prec : Option ContractPrecision) (L : FVec Ideal ⟨2, ![M, K]⟩ φ₁)
    (R : FVec Ideal ⟨2, ![N, K]⟩ φ₂) (p : Fin M) (e : Fin N) :
    matmul (DotDims.transposedRhs M K N) prec L R (constant ⟨2, ![M, N]⟩ .f32 0x00000000#32) (ix2 p e)
      = ∑ f : Fin K, L (ix2 p f) * R (ix2 e f) :=
  (Ideal.matmul_constant_zero_apply (DotDims.transposedRhs M K N) prec L R (ix2 p e)).trans (trhs_sum L R p e)

end Cert.Lib.MatmulT

end
-- ==== Proof.LibRowMax.lean ====
/-
  A row's maximum read at an index given by coordinates, over the extended reals, at any extents: the lane maximum of a
  matrix `[a, b]` along its second axis, and the maximum of an array `[a, b, c]` along its last axis taken by a
  one-operand reduction from an initial value, are each the fold of `max` over the reduced axis's coordinates of the
  row's entries — the inserted index is `(r, k)`, respectively `(p, r, k)`.
-/
import Idealize.ShloMosaic.Lib.ValueIdx
import Idealize.ShloMosaic.PureOps.Ideal.Laws

open scoped BigOperators

namespace Cert.Lib.RowMax

open Idealize.ShloMosaic Idealize.ShloMosaic.ValueIdx

/-- Over the extended reals, the lane maximum of an `[a, b]` array along its second axis is, at row `r`, the fold of
    `max` from the accumulator's value over that row's `b` entries. -/
theorem multiReduction_maximumf_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (r : Fin a) :
    multiReduction .maximumf [(1 : Fin 2)] ⟨1, ![a]⟩ src acc h hφ hacc (ix1 r)
      = (Finset.univ : Finset (Fin b)).fold max (FloatOps.ofBits φ acc) (fun k => src (ix2 r k)) := by
  rw [Ideal.multiReduction_maximumf_single]
  exact congrArg ((Finset.univ : Finset (Fin b)).fold max (FloatOps.ofBits φ acc)) (funext fun k => congrArg src (funext fun c => Fin.ext (by
    match c with | ⟨0, _⟩ => rfl | ⟨1, _⟩ => rfl)))

/-- Over the extended reals, a one-operand reduction by `max` of an `[a, b, c]` array along its last axis is, at
    `(p, r)`, the fold of `max` from the initial value over the `c` entries of that row. -/
theorem hostReduce_maximumf_abc_ab_apply {φ : FTy} {a b c : ℕ} {u : Shape} (x : (⟨3, ![a, b, c]⟩ : Shape).Idx → Ideal φ)
    (init : u.Idx → Ideal φ) (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (r : Fin b) :
    Host.reduce (FloatOps.maximumf (F := Ideal) (φ := φ)) x init h' hu (ix2 p r)
      = (Finset.univ : Finset (Fin c)).fold max (init (Shape.Idx.first hu)) (fun k => x (ix3 p r k)) := by
  rw [Host.reduce_eq_fold_single (FloatOps.maximumf (F := Ideal) (φ := φ)) x init h' h hu (ix2 p r)]
  exact congrArg ((Finset.univ : Finset (Fin c)).fold max (init (Shape.Idx.first hu))) (funext fun k => congrArg x (funext fun d => Fin.ext (by
    match d with | ⟨0, _⟩ => rfl | ⟨1, _⟩ => rfl | ⟨2, _⟩ => rfl)))

end Cert.Lib.RowMax
-- ==== Proof.LibRowSup.lean ====
/-
  A row's maximum as a supremum, over the extended reals and at any extents. A maximum folded from an
  initial value over the entries of a row is, in any order of folding, the larger of the initial value
  and the supremum of the row: both are the least bound above all of them. Two forms: the lane maximum
  of a matrix [a, b] along axis 1, and a one-operand max-reduce on the host of an array [a, b, c, d] along
  its last axis.
-/
import Idealize.ShloMosaic.Lib.ValueIdx
import Idealize.ShloMosaic.PureOps.Ideal.Laws
import proofs.«164477_j73151882985559_2_alg».proof.Proof.LibRowMax

noncomputable section

namespace Cert.Lib.RowSup

open Idealize.ShloMosaic Idealize.ShloMosaic.ValueIdx

/-- A fold of max from an initial value is the larger of the initial value and the supremum. -/
theorem fold_max_eq_max_sup {n : ℕ} (f : Fin n → EReal) (a : EReal) :
    (Finset.univ : Finset (Fin n)).fold max a f = max a (Finset.univ.sup f) :=
  eq_of_forall_ge_iff fun c => by
    rw [Finset.fold_max_le, max_le_iff, Finset.sup_le_iff]

/-- The lane maximum of [a, b] along axis 1, read at row r: the larger of the initial value and the
    supremum of the row. -/
theorem multiReduction_maximumf_ab_a_sup {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (r : Fin a) :
    multiReduction .maximumf [(1 : Fin 2)] ⟨1, ![a]⟩ src acc h hφ hacc (ix1 r)
      = max (Ideal.ofBits φ acc) (Finset.univ.sup fun t : Fin b => src (ix2 r t)) :=
  (Cert.Lib.RowMax.multiReduction_maximumf_ab_a_apply src acc h hφ hacc r).trans
    (fold_max_eq_max_sup (fun t : Fin b => src (ix2 r t)) _)

/-- The host's max-reduce of [a, b, c, d] along its last axis, read at (p, q, r): the fold of max from
    the initial value over the row. -/
theorem hostReduce_maximumf_abcd_abc_apply {φ : FTy} {a b c d : ℕ} {u : Shape}
    (x : (⟨4, ![a, b, c, d]⟩ : Shape).Idx → Ideal φ) (init : u.Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < u.numel)
    (p : Fin a) (q : Fin b) (r : Fin c) :
    Host.reduce (FloatOps.maximumf (F := Ideal) (φ := φ)) x init h' hu (ix3 p q r)
      = (Finset.univ : Finset (Fin d)).fold max (init (Shape.Idx.first hu)) (fun k => x (ix4 p q r k)) := by
  rw [Host.reduce_eq_fold_single (FloatOps.maximumf (F := Ideal) (φ := φ)) x init h' h hu (ix3 p q r)]
  exact congrArg ((Finset.univ : Finset (Fin d)).fold max (init (Shape.Idx.first hu))) (funext fun k => congrArg x (funext fun e => Fin.ext (by
    match e with | ⟨0, _⟩ => rfl | ⟨1, _⟩ => rfl | ⟨2, _⟩ => rfl | ⟨3, _⟩ => rfl)))

/-- … and so the larger of the initial value and the supremum of the row. -/
theorem hostReduce_maximumf_abcd_abc_sup {φ : FTy} {a b c d : ℕ} {u : Shape}
    (x : (⟨4, ![a, b, c, d]⟩ : Shape).Idx → Ideal φ) (init : u.Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < u.numel)
    (p : Fin a) (q : Fin b) (r : Fin c) :
    Host.reduce (FloatOps.maximumf (F := Ideal) (φ := φ)) x init h' hu (ix3 p q r)
      = max (init (Shape.Idx.first hu)) (Finset.univ.sup fun t : Fin d => x (ix4 p q r t)) :=
  (hostReduce_maximumf_abcd_abc_apply x init h' h hu p q r).trans
    (fold_max_eq_max_sup (fun t : Fin d => x (ix4 p q r t)) _)

end Cert.Lib.RowSup

end
-- ==== Proof.Pay.lean ====
/-
  The body's arithmetic read entry by entry over the extended reals. A recast block keeps its entries.
  The scores block is, at (r, t), the inner product of query row r and key row t times one eighth (the
  product contracts the feature axis of both operands). The weights block is the row softmax of the scores:
  the lane maximum is the row's supremum (it starts from minus infinity), the lane sum is the row's sum, and
  each is spread back along the row. The output block is the weights times the values.
-/
import proofs.«164477_j73151882985559_2_alg».proof.Proof.Gen.KernelIdeal.Skeleton
import proofs.«164477_j73151882985559_2_alg».proof.Proof.Spec
import proofs.«164477_j73151882985559_2_alg».proof.Proof.Scale
import proofs.«164477_j73151882985559_2_alg».proof.Proof.LibUnitBlocks
import proofs.«164477_j73151882985559_2_alg».proof.Proof.LibColumns
import proofs.«164477_j73151882985559_2_alg».proof.Proof.LibMatmul
import proofs.«164477_j73151882985559_2_alg».proof.Proof.LibMatmulT
import proofs.«164477_j73151882985559_2_alg».proof.Proof.LibRowSup

noncomputable section

namespace Cert.Attn.Pay

open Cert.KernelIdeal Cert.KernelIdeal.Gen
open Idealize.ShloMosaic Idealize.ShloMosaic.ValueIdx
open scoped BigOperators

/-- A key or value block recast into its scratch buffer keeps its entries. -/
theorem recastKeys_apply (x1 : Vec Ideal S1x1x2048x64 .f32) (r : Fin 2048) (d : Fin 64) :
    k0_pay1 (F := Ideal) x1 (ix2 r d) = x1 (ix4 (0 : Fin 1) (0 : Fin 1) r d) := by
  unfold k0_pay1
  refine (congrFun (shapeCast_self _ _) _).trans ?_
  exact Cert.Lib.UnitBlocks.shapeCast_11ab_ab_apply x1 shapeCasts_S1x1x2048x64_S2048x64 r d

theorem recastValues_apply (x2 : Vec Ideal S1x1x2048x64 .f32) (r : Fin 2048) (d : Fin 64) :
    k0_pay2 (F := Ideal) x2 (ix2 r d) = x2 (ix4 (0 : Fin 1) (0 : Fin 1) r d) := by
  unfold k0_pay2
  refine (congrFun (shapeCast_self _ _) _).trans ?_
  exact Cert.Lib.UnitBlocks.shapeCast_11ab_ab_apply x2 shapeCasts_S1x1x2048x64_S2048x64 r d

/-- The scaled scores of a query block against the keys held in scratch. -/
def scoresBlk (x0 : Vec Ideal S1x1x512x64 .f32) (kb : FVec Ideal S2048x64 .bf16) : FVec Ideal S512x2048 .f32 :=
  mulf (matmul dot_S512x64_S2048x64_S512x2048_1_1_0_0_n_n none
      (truncf .bf16 (shapeCast S512x64 x0 shapeCasts_S1x1x512x64_S512x64) bitsLt_bf16_f32) kb
      (constant S512x2048 .f32 0x00000000#32))
    (broadcast S512x2048 (Scalar.ofBits .f32 0x3E000000#32))

/-- The row softmax as the body spells it: lane maximum, subtract, exponentiate, lane sum, divide. -/
def softmaxBlk (s : FVec Ideal S512x2048 .f32) : FVec Ideal S512x2048 .f32 :=
  divf
    (exp (subf s (broadcastTo S512x2048 (shapeCast S512x1 (multiReduction .maximumf [1] S512 s 0xFF800000#32 reduces_S512x2048_S512 (.inl rfl) rfl) shapeCasts_S512_S512x1) broadcasts_S512x1_S512x2048)))
    (broadcastTo S512x2048 (shapeCast S512x1 (multiReduction .add [1] S512
        (exp (subf s (broadcastTo S512x2048 (shapeCast S512x1 (multiReduction .maximumf [1] S512 s 0xFF800000#32 reduces_S512x2048_S512 (.inl rfl) rfl) shapeCasts_S512_S512x1) broadcasts_S512x1_S512x2048)))
        0x00000000#32 reduces_S512x2048_S512 (.inl rfl) rfl) shapeCasts_S512_S512x1) broadcasts_S512x1_S512x2048)

/-- The weights the body computes are the row softmax of its scores. -/
theorem weightsBlk_eq (x0 : Vec Ideal S1x1x512x64 .f32) (kb : FVec Ideal S2048x64 .bf16) :
    k0_pay3 (F := Ideal) x0 kb = softmaxBlk (scoresBlk x0 kb) := rfl

/-- A score: query row r against key row t over the 64 features, times one eighth. -/
theorem scoresBlk_apply (x0 : Vec Ideal S1x1x512x64 .f32) (kb : FVec Ideal S2048x64 .bf16) (r : Fin 512) (t : Fin 2048) :
    scoresBlk x0 kb (ix2 r t)
      = (∑ d : Fin 64, x0 (ix4 (0 : Fin 1) (0 : Fin 1) r d) * kb (ix2 t d)) * Ideal.ofBits .f32 0x3E000000#32 := by
  unfold scoresBlk
  refine congrArg (· * Ideal.ofBits .f32 0x3E000000#32) ?_
  refine (Cert.Lib.MatmulT.matmul_trhs_zero_apply (M := 512) (K := 64) (N := 2048) none
    (truncf .bf16 (shapeCast S512x64 x0 shapeCasts_S1x1x512x64_S512x64) bitsLt_bf16_f32) kb r t).trans ?_
  refine Finset.sum_congr rfl fun d _ => ?_
  refine congrArg (· * kb (ix2 t d)) ?_
  exact Cert.Lib.UnitBlocks.shapeCast_11ab_ab_apply x0 shapeCasts_S1x1x512x64_S512x64 r d

/-- A lane reduction spread back along its row reads the reduction at the row. -/
theorem spread_apply (v : FVec Ideal S512 .f32) (r : Fin 512) (t : Fin 2048) :
    broadcastTo S512x2048 (shapeCast S512x1 v shapeCasts_S512_S512x1) broadcasts_S512x1_S512x2048 (ix2 r t) = v (ix1 r) :=
  (Cert.Lib.Columns.broadcastTo_a1_ab_apply _ broadcasts_S512x1_S512x2048 r t).trans
    (Cert.Lib.Columns.shapeCast_a_a1_apply v shapeCasts_S512_S512x1 r (0 : Fin 1))

/-- The lane maximum from minus infinity is the row's supremum. -/
theorem rowMax_apply (s : FVec Ideal S512x2048 .f32) (r : Fin 512) :
    multiReduction .maximumf [1] S512 s 0xFF800000#32 reduces_S512x2048_S512 (.inl rfl) rfl (ix1 r)
      = Finset.univ.sup fun t : Fin 2048 => s (ix2 r t) := by
  refine (Cert.Lib.RowSup.multiReduction_maximumf_ab_a_sup s 0xFF800000#32 reduces_S512x2048_S512 (.inl rfl) rfl r).trans ?_
  rw [Cert.Attn.ofBits_neg_inf]
  exact max_bot_left _

/-- The row softmax of the block, entry by entry. -/
theorem softmaxBlk_apply (s : FVec Ideal S512x2048 .f32) (r : Fin 512) (t : Fin 2048) :
    softmaxBlk s (ix2 r t) = Cert.Attn.softmaxRow (fun u => s (ix2 r u)) t := by
  have hE : ∀ u : Fin 2048,
      (exp (subf s (broadcastTo S512x2048 (shapeCast S512x1 (multiReduction .maximumf [1] S512 s 0xFF800000#32 reduces_S512x2048_S512 (.inl rfl) rfl) shapeCasts_S512_S512x1) broadcasts_S512x1_S512x2048)) : FVec Ideal S512x2048 .f32) (ix2 r u)
        = Ideal.exp (s (ix2 r u) - Finset.univ.sup fun t : Fin 2048 => s (ix2 r t)) := fun u =>
    congrArg (fun m => Ideal.exp (s (ix2 r u) - m)) ((spread_apply _ r u).trans (rowMax_apply s r))
  unfold softmaxBlk Cert.Attn.softmaxRow
  refine (congrArg (Ideal.div _) ((spread_apply _ r t).trans
    (Cert.Lib.Columns.multiReduction_add_ab_a_apply _ 0x00000000#32 reduces_S512x2048_S512 (.inl rfl) rfl r))).trans ?_
  refine (congrArg (Ideal.div _) (Finset.sum_congr rfl fun u _ => hE u)).trans ?_
  exact congrArg (fun e => Ideal.div e _) (hE t)

/-- The weights block stored back as [1, 1, 512, 2048]. -/
theorem weightsStore_apply (x0 : Vec Ideal S1x1x512x64 .f32) (kb : FVec Ideal S2048x64 .bf16) (u v : Fin 1) (r : Fin 512) (t : Fin 2048) :
    k0_pay4 (F := Ideal) x0 kb (ix4 u v r t) = k0_pay3 (F := Ideal) x0 kb (ix2 r t) := by
  unfold k0_pay4
  exact Cert.Lib.UnitBlocks.shapeCast_ab_11ab_apply _ shapeCasts_S512x2048_S1x1x512x2048 u v r t

/-- The output block stored back as [1, 1, 512, 64]: the weights times the values held in scratch. -/
theorem outStore_apply (x0 : Vec Ideal S1x1x512x64 .f32) (kb vb : FVec Ideal S2048x64 .bf16) (u v : Fin 1) (r : Fin 512) (d : Fin 64) :
    k0_pay5 (F := Ideal) x0 kb vb (ix4 u v r d) = ∑ t : Fin 2048, k0_pay3 (F := Ideal) x0 kb (ix2 r t) * vb (ix2 t d) := by
  unfold k0_pay5
  refine (Cert.Lib.UnitBlocks.shapeCast_ab_11ab_apply _ shapeCasts_S512x64_S1x1x512x64 u v r d).trans ?_
  exact Cert.Lib.Matmul.matmul_plain_zero_apply (M := 512) (K := 2048) (N := 64) none
    (truncf .bf16 (k0_pay3 (F := Ideal) x0 kb) bitsLt_bf16_f32) vb r d

/-- The weights block entry by entry: the softmax of the row of scores. -/
theorem weights_apply (x0 : Vec Ideal S1x1x512x64 .f32) (kb : FVec Ideal S2048x64 .bf16) (r : Fin 512) (t : Fin 2048) :
    k0_pay3 (F := Ideal) x0 kb (ix2 r t)
      = Cert.Attn.softmaxRow (fun u => (∑ d : Fin 64, x0 (ix4 (0 : Fin 1) (0 : Fin 1) r d) * kb (ix2 u d)) * Ideal.ofBits .f32 0x3E000000#32) t := by
  rw [weightsBlk_eq]
  refine (softmaxBlk_apply (scoresBlk x0 kb) r t).trans ?_
  exact congrArg (fun f => Cert.Attn.softmaxRow f t) (funext fun u => scoresBlk_apply x0 kb r u)

end Cert.Attn.Pay

end
-- ==== Proof.Tile.lean ====
/-
  One grid point of the kernel: the body is handed 512 query rows of one head and reads that head's keys
  and values (recast, from scratch). If the query block's rows are rows of the query array in head (b, h),
  and the two scratch buffers hold the head's key and value rows, then the weights block holds the attention
  weights of those query rows and the output block their attention outputs.
-/
import proofs.«164477_j73151882985559_2_alg».proof.Proof.Pay

noncomputable section

namespace Cert.Attn.Tile

open Cert.KernelIdeal Cert.KernelIdeal.Gen
open Idealize.ShloMosaic Idealize.ShloMosaic.ValueIdx
open scoped BigOperators

/-- The weights block of a tile: the attention weights of its query rows. -/
theorem weights_tile (Q K : Cert.Attn.Arg) (x0 : Vec Ideal S1x1x512x64 .f32) (kb : FVec Ideal S2048x64 .bf16)
    (b : Fin 2) (h : Fin 16) (row : Fin 512 → Fin 2048)
    (hq : ∀ (r : Fin 512) (d : Fin 64), x0 (ix4 (0 : Fin 1) (0 : Fin 1) r d) = Q (ix4 b h (row r) d))
    (hk : ∀ (r : Fin 2048) (d : Fin 64), kb (ix2 r d) = K (ix4 b h r d))
    (u v : Fin 1) (r : Fin 512) (t : Fin 2048) :
    k0_pay4 (F := Ideal) x0 kb (ix4 u v r t) = Cert.Attn.weight Q K b h (row r) t := by
  refine (Cert.Attn.Pay.weightsStore_apply x0 kb u v r t).trans ((Cert.Attn.Pay.weights_apply x0 kb r t).trans ?_)
  unfold Cert.Attn.weight Cert.Attn.score
  refine congrArg (fun f => Cert.Attn.softmaxRow f t) (funext fun w => ?_)
  refine congrArg (· * Ideal.ofBits .f32 0x3E000000#32) (Finset.sum_congr rfl fun d _ => ?_)
  rw [hq r d, hk w d]

/-- The output block of a tile: the attention outputs of its query rows. -/
theorem out_tile (Q K V : Cert.Attn.Arg) (x0 : Vec Ideal S1x1x512x64 .f32) (kb vb : FVec Ideal S2048x64 .bf16)
    (b : Fin 2) (h : Fin 16) (row : Fin 512 → Fin 2048)
    (hq : ∀ (r : Fin 512) (d : Fin 64), x0 (ix4 (0 : Fin 1) (0 : Fin 1) r d) = Q (ix4 b h (row r) d))
    (hk : ∀ (r : Fin 2048) (d : Fin 64), kb (ix2 r d) = K (ix4 b h r d))
    (hv : ∀ (r : Fin 2048) (d : Fin 64), vb (ix2 r d) = V (ix4 b h r d))
    (u v : Fin 1) (r : Fin 512) (d : Fin 64) :
    k0_pay5 (F := Ideal) x0 kb vb (ix4 u v r d) = Cert.Attn.attend Q K V b h (row r) d := by
  refine (Cert.Attn.Pay.outStore_apply x0 kb vb u v r d).trans ?_
  unfold Cert.Attn.attend
  refine Finset.sum_congr rfl fun t _ => ?_
  rw [hv t d]
  refine congrArg (· * V (ix4 b h t d)) ?_
  exact (Cert.Attn.Pay.weightsStore_apply x0 kb (0 : Fin 1) (0 : Fin 1) r t).symm.trans
    (weights_tile Q K x0 kb b h row hq hk (0 : Fin 1) (0 : Fin 1) r t)

end Cert.Attn.Tile

end
-- ==== Proof.Blocks.lean ====
/-
  From the grid to the arrays. The 128 grid points run head by head, four query tiles of 512 rows per head:
  point t is tile t mod 4 of head (t / 64, (t / 4) mod 16). Its query, weights and output blocks are rows
  512·(t mod 4) … of that head; its key and value blocks are the head's whole key and value matrices. The two
  scratch buffers are filled at a head's first tile and kept through its other three, so after every point they
  hold the recast keys and values of the point's own head. Hence every point writes back the attention weights
  and outputs of its rows, the blocks tile the two result arrays, and the arrays end as the attention functions
  of the argument arrays.
-/
import proofs.«164477_j73151882985559_2_alg».proof.Proof.Gen.KernelIdeal.Value
import proofs.«164477_j73151882985559_2_alg».proof.Proof.Pieces
import proofs.«164477_j73151882985559_2_alg».proof.Proof.Tile

set_option maxRecDepth 16384

noncomputable section

namespace Cert.Attn.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the grid: the head and the tile of a point. -/
theorem idx_facts : ∀ t : Fin cfg0.N,
    win0_0.index t (0 : Fin 4) = t.val / 64 ∧ win0_0.index t (1 : Fin 4) = t.val / 4 % 16 ∧ win0_0.index t (2 : Fin 4) = t.val % 4 ∧ win0_0.index t (3 : Fin 4) = 0
    ∧ win0_1.index t (0 : Fin 4) = t.val / 64 ∧ win0_1.index t (1 : Fin 4) = t.val / 4 % 16 ∧ win0_1.index t (2 : Fin 4) = 0 ∧ win0_1.index t (3 : Fin 4) = 0
    ∧ win0_2.index t (0 : Fin 4) = t.val / 64 ∧ win0_2.index t (1 : Fin 4) = t.val / 4 % 16 ∧ win0_2.index t (2 : Fin 4) = 0 ∧ win0_2.index t (3 : Fin 4) = 0
    ∧ win0_3.index t (0 : Fin 4) = t.val / 64 ∧ win0_3.index t (1 : Fin 4) = t.val / 4 % 16 ∧ win0_3.index t (2 : Fin 4) = t.val % 4 ∧ win0_3.index t (3 : Fin 4) = 0
    ∧ win0_4.index t (0 : Fin 4) = t.val / 64 ∧ win0_4.index t (1 : Fin 4) = t.val / 4 % 16 ∧ win0_4.index t (2 : Fin 4) = t.val % 4 ∧ win0_4.index t (3 : Fin 4) = 0 :=
  (by decide +kernel : ∀ t : Fin grid0.N, _)

/-- An entry of a point's query block is an entry of the query array, in the point's head and tile. -/
theorem queryBlk_apply (c : Dev nD) (t : Fin cfg0.N) (u v : Fin 1) (r : Fin 512) (d : Fin 64) (b : Fin 2) (h : Fin 16) (s : Fin 2048)
    (hb : b.val = t.val / 64) (hh : h.val = t.val / 4 % 16) (hs : s.val = t.val % 4 * 512 + r.val) :
    iblk m c 0 t (ix4 u v r d) = V m c main_arg0 (ix4 b h s d) := by
  obtain ⟨e0, e1, e2, e3, -⟩ := idx_facts t
  have hu : u.val = 0 := by omega
  have hv : v.val = 0 := by omega
  show V m c main_arg0 (((cfg0.win 0).blk t).view.emb (ix4 u v r d)) = _
  refine congrArg (V m c main_arg0) (funext fun a => Fin.ext ?_)
  match a with
  | ⟨0, _⟩ => show win0_0.index t (0 : Fin 4) * 1 + 1 * u.val = b.val; omega
  | ⟨1, _⟩ => show win0_0.index t (1 : Fin 4) * 1 + 1 * v.val = h.val; omega
  | ⟨2, _⟩ => show win0_0.index t (2 : Fin 4) * 512 + 1 * r.val = s.val; omega
  | ⟨3, _⟩ => show win0_0.index t (3 : Fin 4) * 64 + 1 * d.val = d.val; omega

/-- An entry of a point's key block is an entry of the key array, in the point's head. -/
theorem keyBlk_apply (c : Dev nD) (t : Fin cfg0.N) (u v : Fin 1) (r : Fin 2048) (d : Fin 64) (b : Fin 2) (h : Fin 16)
    (hb : b.val = t.val / 64) (hh : h.val = t.val / 4 % 16) :
    iblk m c 1 t (ix4 u v r d) = V m c main_arg1 (ix4 b h r d) := by
  obtain ⟨-, -, -, -, e0, e1, e2, e3, -⟩ := idx_facts t
  have hu : u.val = 0 := by omega
  have hv : v.val = 0 := by omega
  show V m c main_arg1 (((cfg0.win 1).blk t).view.emb (ix4 u v r d)) = _
  refine congrArg (V m c main_arg1) (funext fun a => Fin.ext ?_)
  match a with
  | ⟨0, _⟩ => show win0_1.index t (0 : Fin 4) * 1 + 1 * u.val = b.val; omega
  | ⟨1, _⟩ => show win0_1.index t (1 : Fin 4) * 1 + 1 * v.val = h.val; omega
  | ⟨2, _⟩ => show win0_1.index t (2 : Fin 4) * 2048 + 1 * r.val = r.val; omega
  | ⟨3, _⟩ => show win0_1.index t (3 : Fin 4) * 64 + 1 * d.val = d.val; omega

/-- An entry of a point's value block is an entry of the value array, in the point's head. -/
theorem valueBlk_apply (c : Dev nD) (t : Fin cfg0.N) (u v : Fin 1) (r : Fin 2048) (d : Fin 64) (b : Fin 2) (h : Fin 16)
    (hb : b.val = t.val / 64) (hh : h.val = t.val / 4 % 16) :
    iblk m c 2 t (ix4 u v r d) = V m c main_arg2 (ix4 b h r d) := by
  obtain ⟨-, -, -, -, -, -, -, -, e0, e1, e2, e3, -⟩ := idx_facts t
  have hu : u.val = 0 := by omega
  have hv : v.val = 0 := by omega
  show V m c main_arg2 (((cfg0.win 2).blk t).view.emb (ix4 u v r d)) = _
  refine congrArg (V m c main_arg2) (funext fun a => Fin.ext ?_)
  match a with
  | ⟨0, _⟩ => show win0_2.index t (0 : Fin 4) * 1 + 1 * u.val = b.val; omega
  | ⟨1, _⟩ => show win0_2.index t (1 : Fin 4) * 1 + 1 * v.val = h.val; omega
  | ⟨2, _⟩ => show win0_2.index t (2 : Fin 4) * 2048 + 1 * r.val = r.val; omega
  | ⟨3, _⟩ => show win0_2.index t (3 : Fin 4) * 64 + 1 * d.val = d.val; omega

/-- After every point the two scratch buffers hold the key and value rows of the point's head: written at the
    head's first tile, kept through the other three, which belong to the same head. -/
theorem scratch_inv (c : Dev nD) : ∀ (n : ℕ) (hn : n < cfg0.N) (b : Fin 2) (h : Fin 16), b.val = n / 64 → h.val = n / 4 % 16 →
    ∀ (r : Fin 2048) (d : Fin 64),
      (outsAt0 m c n hn).2.2.1 (ix2 r d) = V m c main_arg1 (ix4 b h r d)
      ∧ (outsAt0 m c n hn).2.2.2 (ix2 r d) = V m c main_arg2 (ix4 b h r d) := by
  intro n
  induction n using Nat.strong_induction_on with
  | _ n ih =>
    intro hn b h hb hh r d
    have hN : n < 128 := lt_of_lt_of_eq hn (show cfg0.N = 128 from N_0)
    by_cases h0 : n % 4 = 0
    · rw [outsAt0_A m c ⟨n, hn⟩ h0]
      dsimp only
      constructor
      · refine (congrFun (Cert.Attn.Pieces.keys_first c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) ((hcond0_0 (⟨n, hn⟩ : Fin cfg0.N)).mpr h0) (iblk m c 0 (⟨n, hn⟩ : Fin cfg0.N)) (iblk m c 1 (⟨n, hn⟩ : Fin cfg0.N)) (iblk m c 2 (⟨n, hn⟩ : Fin cfg0.N))) (ix2 r d)).trans ?_
        refine (Cert.Attn.Pay.recastKeys_apply (iblk m c 1 (⟨n, hn⟩ : Fin cfg0.N)) r d).trans ?_
        exact keyBlk_apply m c (⟨n, hn⟩ : Fin cfg0.N) (0 : Fin 1) (0 : Fin 1) r d b h hb hh
      · refine (congrFun (Cert.Attn.Pieces.values_first c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) ((hcond0_0 (⟨n, hn⟩ : Fin cfg0.N)).mpr h0) (iblk m c 0 (⟨n, hn⟩ : Fin cfg0.N)) (iblk m c 1 (⟨n, hn⟩ : Fin cfg0.N)) (iblk m c 2 (⟨n, hn⟩ : Fin cfg0.N))) (ix2 r d)).trans ?_
        refine (Cert.Attn.Pay.recastValues_apply (iblk m c 2 (⟨n, hn⟩ : Fin cfg0.N)) r d).trans ?_
        exact valueBlk_apply m c (⟨n, hn⟩ : Fin cfg0.N) (0 : Fin 1) (0 : Fin 1) r d b h hb hh
    · rw [outsAt0_B m c ⟨n, hn⟩ h0]
      dsimp only
      unfold sout0_B_0 sout0_B_1
      exact ih (n - 1) (by omega) _ b h (by omega) (by omega) r d

/-- A block of window 4 that holds, row by row, the attention weights of the point's rows is the point's block of the
    weights array. -/
theorem weightsBlk_is_read (c : Dev nD) (t : Fin cfg0.N) (X : Vec Ideal S1x1x512x2048 .f32) (b : Fin 2) (h : Fin 16) (row : Fin 512 → Fin 2048)
    (hb : b.val = t.val / 64) (hh : h.val = t.val / 4 % 16) (hrow : ∀ r : Fin 512, (row r).val = t.val % 4 * 512 + r.val)
    (hX : ∀ (u v : Fin 1) (r : Fin 512) (k : Fin 2048), X (ix4 u v r k) = Cert.Attn.weight (V m c main_arg0) (V m c main_arg1) b h (row r) k) :
    (cfg0.win 4).cut (grid0.coords t) X
      = ((cfg0.win 4).blk t).view.read (Elt Ideal) (Cert.Attn.weightArr (V m c main_arg0) (V m c main_arg1)) := by
  obtain ⟨-, -, -, -, -, -, -, -, -, -, -, -, -, -, -, -, e0, e1, e2, e3⟩ := idx_facts t
  refine funext fun (y : S1x1x512x2048.Idx) => ?_
  obtain ⟨u, v, r, k, rfl⟩ : ∃ (u v : Fin 1) (r : Fin 512) (k : Fin 2048), y = ix4 u v r k := ⟨y 0, y 1, y 2, y 3, eq_ix4 y⟩
  have hu : u.val = 0 := by omega
  have hv : v.val = 0 := by omega
  have hr := hrow r
  show X (ix4 u v r k) = Cert.Attn.weightArr (V m c main_arg0) (V m c main_arg1) (((cfg0.win 4).blk t).view.emb (ix4 u v r k))
  have e : ((cfg0.win 4).blk t).view.emb (ix4 u v r k) = ix4 b h (row r) k := funext fun a => Fin.ext (by
    match a with
    | ⟨0, _⟩ => show win0_4.index t (0 : Fin 4) * 1 + 1 * u.val = b.val; omega
    | ⟨1, _⟩ => show win0_4.index t (1 : Fin 4) * 1 + 1 * v.val = h.val; omega
    | ⟨2, _⟩ => show win0_4.index t (2 : Fin 4) * 512 + 1 * r.val = (row r).val; omega
    | ⟨3, _⟩ => show win0_4.index t (3 : Fin 4) * 2048 + 1 * k.val = k.val; omega)
  rw [e]
  exact hX u v r k

/-- The same for window 3 and the output array. -/
theorem outBlk_is_read (c : Dev nD) (t : Fin cfg0.N) (X : Vec Ideal S1x1x512x64 .f32) (b : Fin 2) (h : Fin 16) (row : Fin 512 → Fin 2048)
    (hb : b.val = t.val / 64) (hh : h.val = t.val / 4 % 16) (hrow : ∀ r : Fin 512, (row r).val = t.val % 4 * 512 + r.val)
    (hX : ∀ (u v : Fin 1) (r : Fin 512) (d : Fin 64), X (ix4 u v r d) = Cert.Attn.attend (V m c main_arg0) (V m c main_arg1) (V m c main_arg2) b h (row r) d) :
    (cfg0.win 3).cut (grid0.coords t) X
      = ((cfg0.win 3).blk t).view.read (Elt Ideal) (Cert.Attn.attendArr (V m c main_arg0) (V m c main_arg1) (V m c main_arg2)) := by
  obtain ⟨-, -, -, -, -, -, -, -, -, -, -, -, e0, e1, e2, e3, -⟩ := idx_facts t
  refine funext fun (y : S1x1x512x64.Idx) => ?_
  obtain ⟨u, v, r, d, rfl⟩ : ∃ (u v : Fin 1) (r : Fin 512) (d : Fin 64), y = ix4 u v r d := ⟨y 0, y 1, y 2, y 3, eq_ix4 y⟩
  have hu : u.val = 0 := by omega
  have hv : v.val = 0 := by omega
  have hr := hrow r
  show X (ix4 u v r d) = Cert.Attn.attendArr (V m c main_arg0) (V m c main_arg1) (V m c main_arg2) (((cfg0.win 3).blk t).view.emb (ix4 u v r d))
  have e : ((cfg0.win 3).blk t).view.emb (ix4 u v r d) = ix4 b h (row r) d := funext fun a => Fin.ext (by
    match a with
    | ⟨0, _⟩ => show win0_3.index t (0 : Fin 4) * 1 + 1 * u.val = b.val; omega
    | ⟨1, _⟩ => show win0_3.index t (1 : Fin 4) * 1 + 1 * v.val = h.val; omega
    | ⟨2, _⟩ => show win0_3.index t (2 : Fin 4) * 512 + 1 * r.val = (row r).val; omega
    | ⟨3, _⟩ => show win0_3.index t (3 : Fin 4) * 64 + 1 * d.val = d.val; omega)
  rw [e]
  exact hX u v r d

/-- The head and the rows of a point. -/
theorem point_coords (t : Fin cfg0.N) : ∃ (b : Fin 2) (h : Fin 16) (row : Fin 512 → Fin 2048),
    b.val = t.val / 64 ∧ h.val = t.val / 4 % 16 ∧ ∀ r : Fin 512, (row r).val = t.val % 4 * 512 + r.val := by
  have hN : t.val < 128 := lt_of_lt_of_eq t.isLt (show cfg0.N = 128 from N_0)
  exact ⟨⟨t.val / 64, by omega⟩, ⟨t.val / 4 % 16, by omega⟩, fun r => ⟨t.val % 4 * 512 + r.val, by have := r.isLt; omega⟩, rfl, rfl, fun _ => rfl⟩

/-- What a point writes back to the weights array is its block of the attention weights. -/
theorem flushed4_eq (c : Dev nD) (t : Fin cfg0.N) :
    (dats m 0 c).flushed 4 t
      = ((cfg0.win 4).blk t).view.read (Elt Ideal) (Cert.Attn.weightArr (V m c main_arg0) (V m c main_arg1)) := by
  have hN : t.val < 128 := lt_of_lt_of_eq t.isLt (show cfg0.N = 128 from N_0)
  obtain ⟨b, h, row, hb, hh, hrow⟩ := point_coords t
  have hq : ∀ (r : Fin 512) (d : Fin 64), iblk m c 0 t (ix4 (0 : Fin 1) (0 : Fin 1) r d) = V m c main_arg0 (ix4 b h (row r) d) :=
    fun r d => queryBlk_apply m c t (0 : Fin 1) (0 : Fin 1) r d b h (row r) hb hh (hrow r)
  by_cases h0 : t.val % 4 = 0
  · rw [flushed4_A m c t h0]
    refine weightsBlk_is_read m c t _ b h row hb hh hrow fun u v r k => ?_
    refine (congrFun (Cert.Attn.Pieces.weights_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)) (ix4 u v r k)).trans ?_
    exact Cert.Attn.Tile.weights_tile (V m c main_arg0) (V m c main_arg1) (iblk m c 0 t) (k0_pay1 (F := Ideal) (iblk m c 1 t)) b h row hq
      (fun r d => (Cert.Attn.Pay.recastKeys_apply (iblk m c 1 t) r d).trans (keyBlk_apply m c t (0 : Fin 1) (0 : Fin 1) r d b h hb hh)) u v r k
  · rw [flushed4_B m c t h0]
    refine weightsBlk_is_read m c t _ b h row hb hh hrow fun u v r k => ?_
    refine (congrFun (Cert.Attn.Pieces.weights_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh' => h0 ((hcond0_0 t).mp hh')) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix4 u v r k)).trans ?_
    exact Cert.Attn.Tile.weights_tile (V m c main_arg0) (V m c main_arg1) (iblk m c 0 t) _ b h row hq
      (fun r d => (scratch_inv m c (t.val - 1) (Nat.lt_of_le_of_lt (Nat.sub_le _ _) t.isLt) b h (by omega) (by omega) r d).1) u v r k

/-- What a point writes back to the output array is its block of the attention outputs. -/
theorem flushed3_eq (c : Dev nD) (t : Fin cfg0.N) :
    (dats m 0 c).flushed 3 t
      = ((cfg0.win 3).blk t).view.read (Elt Ideal) (Cert.Attn.attendArr (V m c main_arg0) (V m c main_arg1) (V m c main_arg2)) := by
  have hN : t.val < 128 := lt_of_lt_of_eq t.isLt (show cfg0.N = 128 from N_0)
  obtain ⟨b, h, row, hb, hh, hrow⟩ := point_coords t
  have hq : ∀ (r : Fin 512) (d : Fin 64), iblk m c 0 t (ix4 (0 : Fin 1) (0 : Fin 1) r d) = V m c main_arg0 (ix4 b h (row r) d) :=
    fun r d => queryBlk_apply m c t (0 : Fin 1) (0 : Fin 1) r d b h (row r) hb hh (hrow r)
  by_cases h0 : t.val % 4 = 0
  · rw [flushed3_A m c t h0]
    refine outBlk_is_read m c t _ b h row hb hh hrow fun u v r d => ?_
    refine (congrFun (Cert.Attn.Pieces.out_first c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)) (ix4 u v r d)).trans ?_
    exact Cert.Attn.Tile.out_tile (V m c main_arg0) (V m c main_arg1) (V m c main_arg2) (iblk m c 0 t)
      (k0_pay1 (F := Ideal) (iblk m c 1 t)) (k0_pay2 (F := Ideal) (iblk m c 2 t)) b h row hq
      (fun r d => (Cert.Attn.Pay.recastKeys_apply (iblk m c 1 t) r d).trans (keyBlk_apply m c t (0 : Fin 1) (0 : Fin 1) r d b h hb hh))
      (fun r d => (Cert.Attn.Pay.recastValues_apply (iblk m c 2 t) r d).trans (valueBlk_apply m c t (0 : Fin 1) (0 : Fin 1) r d b h hb hh)) u v r d
  · rw [flushed3_B m c t h0]
    refine outBlk_is_read m c t _ b h row hb hh hrow fun u v r d => ?_
    refine (congrFun (Cert.Attn.Pieces.out_later c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh' => h0 ((hcond0_0 t).mp hh')) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix4 u v r d)).trans ?_
    exact Cert.Attn.Tile.out_tile (V m c main_arg0) (V m c main_arg1) (V m c main_arg2) (iblk m c 0 t) _ _ b h row hq
      (fun r d => (scratch_inv m c (t.val - 1) (Nat.lt_of_le_of_lt (Nat.sub_le _ _) t.isLt) b h (by omega) (by omega) r d).1)
      (fun r d => (scratch_inv m c (t.val - 1) (Nat.lt_of_le_of_lt (Nat.sub_le _ _) t.isLt) b h (by omega) (by omega) r d).2) u v r d

/-- An index of the weights array is in a point's block iff each coordinate is in the block's range on its axis. -/
theorem mem_blk4 (t : Fin cfg0.N) (i : S2x16x2048x2048.Idx) :
    i ∈ ((cfg0.win 4).blk t).view.set ↔ ∀ a : Fin 4, win0_4.index t a * S1x1x512x2048.size a ≤ (i a).val ∧ (i a).val < win0_4.index t a * S1x1x512x2048.size a + S1x1x512x2048.size a := by
  show i ∈ ((View.whole main_v0_1).slice (win0_4.rect t)).set ↔ _
  rw [View.set_slice_whole, Rect.mem_set_unit]
  exact Iff.rfl

theorem mem_blk3 (t : Fin cfg0.N) (i : S2x16x2048x64.Idx) :
    i ∈ ((cfg0.win 3).blk t).view.set ↔ ∀ a : Fin 4, win0_3.index t a * S1x1x512x64.size a ≤ (i a).val ∧ (i a).val < win0_3.index t a * S1x1x512x64.size a + S1x1x512x64.size a := by
  show i ∈ ((View.whole main_v0_0).slice (win0_3.rect t)).set ↔ _
  rw [View.set_slice_whole, Rect.mem_set_unit]
  exact Iff.rfl

/-- Every index of the weights array is in the block of the point of its head and tile. -/
theorem cover4 (i : S2x16x2048x2048.Idx) : ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 2048 := (i 3).isLt
  obtain ⟨t, ht⟩ : ∃ t : Fin cfg0.N, t.val = (i 0).val * 64 + (i 1).val * 4 + (i 2).val / 512 :=
    ⟨⟨(i 0).val * 64 + (i 1).val * 4 + (i 2).val / 512, by rw [show cfg0.N = 128 from N_0]; omega⟩, rfl⟩
  obtain ⟨-, -, -, -, -, -, -, -, -, -, -, -, -, -, -, -, e0, e1, e2, e3⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 2048 ≤ (i 3).val ∧ (i 3).val < win0_4.index t (3 : Fin 4) * 2048 + 2048; omega

/-- Every index of the output array is in the block of the point of its head and tile. -/
theorem cover3 (i : S2x16x2048x64.Idx) : ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, ht⟩ : ∃ t : Fin cfg0.N, t.val = (i 0).val * 64 + (i 1).val * 4 + (i 2).val / 512 :=
    ⟨⟨(i 0).val * 64 + (i 1).val * 4 + (i 2).val / 512, by rw [show cfg0.N = 128 from N_0]; omega⟩, rfl⟩
  obtain ⟨-, -, -, -, -, -, -, -, -, -, -, -, e0, e1, e2, e3, -⟩ := idx_facts t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- The weights array after the run. -/
theorem final4 (c : Dev nD) : (dats m 0 c).arrAt 4 cfg0.N = Cert.Attn.weightArr (V m c main_arg0) (V m c main_arg1) :=
  (dats m 0 c).arrAt_eq_of_cover 4 (Cert.Attn.weightArr (V m c main_arg0) (V m c main_arg1)) (fun t _ => flushed4_eq m c t) cover4

/-- The output array after the run. -/
theorem final3 (c : Dev nD) : (dats m 0 c).arrAt 3 cfg0.N = Cert.Attn.attendArr (V m c main_arg0) (V m c main_arg1) (V m c main_arg2) :=
  (dats m 0 c).arrAt_eq_of_cover 3 (Cert.Attn.attendArr (V m c main_arg0) (V m c main_arg1) (V m c main_arg2)) (fun t _ => flushed3_eq m c t) cover3

/-- The kernel's run: both result arrays at the attention functions of the arguments as launched, the arguments unchanged. -/
theorem run : θ_run defs (onTc (τ := τ) (main (F := Ideal))) ⟨m, fun _ => 0, ρ⟩ fun r => ∀ c : Dev nD,
      r.2.mem ((c : Thread nD τ).loc main_v0_0)
        = Cert.Attn.attendArr (m ((c : Thread nD τ).loc main_arg0)) (m ((c : Thread nD τ).loc main_arg1)) (m ((c : Thread nD τ).loc main_arg2))
      ∧ r.2.mem ((c : Thread nD τ).loc main_v0_1)
        = Cert.Attn.weightArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.Attn.Blocks

end
-- ==== Proof.Ref.lean ====
/-
  The reference computes attention stage by stage on whole arrays; read at an index, its stages are the
  attention functions. Its scale 1 / sqrt 64 is one eighth; its row maximum, taken by a reduction from minus
  infinity and then once more against minus infinity, is the row's supremum; its row sum starts from zero;
  the maximum and the sum are spread back along the last axis through a trailing unit axis.
-/
import proofs.«164477_j73151882985559_2_alg».proof.Proof.Gen.ReferenceIdeal.Read
import proofs.«164477_j73151882985559_2_alg».proof.Proof.Spec
import proofs.«164477_j73151882985559_2_alg».proof.Proof.Scale
import proofs.«164477_j73151882985559_2_alg».proof.Proof.LibRowSup

noncomputable section

namespace Cert.Attn.Ref

open Cert.ReferenceIdeal Cert.ReferenceIdeal.Gen Cert.ReferenceIdeal.Read
open Idealize.ShloMosaic Idealize.ShloMosaic.ValueIdx
open scoped BigOperators

/-- An argument array of the reference, over the extended reals. -/
abbrev A : Type := (⟨S2x16x2048x64, .f32⟩ : BufTy).Contents (Elt Ideal)

/-- The reference's scale is one eighth. -/
theorem scale_apply (i : S_.Idx) : val_main_v1 (F := Ideal) i = Ideal.ofBits .f32 0x3E000000#32 :=
  Cert.Attn.ref_scale_eq

/-- The scaled product of queries and keys is the score. -/
theorem score_apply (x0 x1 : A) (b : Fin 2) (h : Fin 16) (s t : Fin 2048) :
    val_main_v4 (F := Ideal) x0 x1 (ix4 b h s t) = Cert.Attn.score x0 x1 b h s t := by
  unfold Cert.Attn.score
  refine (val_main_v4_apply x0 x1 _).trans ?_
  show val_main_v2 (F := Ideal) x0 x1 (ix4 b h s t) * val_main_v3 (F := Ideal) (ix4 b h s t) = _
  rw [val_main_v2_apply, val_main_v3_apply, scale_apply]
  refine congrArg (· * Ideal.ofBits .f32 0x3E000000#32) (Finset.sum_congr rfl fun k _ => ?_)
  have el : lidx_main_v2 (ix4 b h s t) k = ix4 b h s k := funext fun a => Fin.ext (by match a with | ⟨0, _⟩ => rfl | ⟨1, _⟩ => rfl | ⟨2, _⟩ => rfl | ⟨3, _⟩ => rfl)
  have er : ridx_main_v2 (ix4 b h s t) k = ix4 b h t k := funext fun a => Fin.ext (by match a with | ⟨0, _⟩ => rfl | ⟨1, _⟩ => rfl | ⟨2, _⟩ => rfl | ⟨3, _⟩ => rfl)
  rw [el, er]

/-- The row maximum is the supremum of the row of scores. -/
theorem rowMax_apply (x0 x1 : A) (b : Fin 2) (h : Fin 16) (s : Fin 2048) :
    val_main_v7 (F := Ideal) x0 x1 (ix3 b h s) = Finset.univ.sup fun t : Fin 2048 => Cert.Attn.score x0 x1 b h s t := by
  refine (val_main_v7_apply x0 x1 _).trans ?_
  show max (val_main_v6 (F := Ideal) (ix3 b h s)) (val_main_v5 (F := Ideal) x0 x1 (ix3 b h s)) = _
  have h6 : val_main_v6 (F := Ideal) (ix3 b h s) = (⊥ : EReal) :=
    (val_main_v6_apply _).trans Cert.Attn.ofBits_neg_inf
  have h5 : val_main_v5 (F := Ideal) x0 x1 (ix3 b h s)
      = Finset.univ.sup fun t : Fin 2048 => val_main_v4 (F := Ideal) x0 x1 (ix4 b h s t) := by
    unfold val_main_v5
    refine (Cert.Lib.RowSup.hostReduce_maximumf_abcd_abc_sup (val_main_v4 (F := Ideal) x0 x1) (val_main_cst_1 (F := Ideal))
      reducesTo_S2x16x2048x2048_S2x16x2048_d3 (by decide) h_S_ b h s).trans ?_
    rw [show val_main_cst_1 (F := Ideal) (Shape.Idx.first h_S_) = (⊥ : EReal) from Cert.Attn.ofBits_neg_inf]
    exact max_bot_left _
  rw [h6, h5, max_bot_left]
  exact congrArg Finset.univ.sup (funext fun t => score_apply x0 x1 b h s t)

/-- … spread back along the row. -/
theorem rowMaxSpread_apply (x0 x1 : A) (b : Fin 2) (h : Fin 16) (s t : Fin 2048) :
    val_main_v9 (F := Ideal) x0 x1 (ix4 b h s t) = Finset.univ.sup fun u : Fin 2048 => Cert.Attn.score x0 x1 b h s u := by
  refine (val_main_v9_apply x0 x1 _).trans ((val_main_v8_apply x0 x1 _).trans ?_)
  have e : idx_main_v8 (idx_main_v9 (ix4 b h s t)) = ix3 b h s := funext fun a => Fin.ext (by match a with | ⟨0, _⟩ => rfl | ⟨1, _⟩ => rfl | ⟨2, _⟩ => rfl)
  rw [e]
  exact rowMax_apply x0 x1 b h s

/-- The exponential of a score less its row's supremum. -/
theorem expo_apply (x0 x1 : A) (b : Fin 2) (h : Fin 16) (s t : Fin 2048) :
    val_main_v11 (F := Ideal) x0 x1 (ix4 b h s t)
      = Ideal.exp (Cert.Attn.score x0 x1 b h s t - Finset.univ.sup fun u : Fin 2048 => Cert.Attn.score x0 x1 b h s u) := by
  refine (val_main_v11_apply x0 x1 _).trans ?_
  show Ideal.exp (val_main_v10 (F := Ideal) x0 x1 (ix4 b h s t)) = _
  refine congrArg Ideal.exp ?_
  refine (val_main_v10_apply x0 x1 _).trans ?_
  show val_main_v4 (F := Ideal) x0 x1 (ix4 b h s t) - val_main_v9 (F := Ideal) x0 x1 (ix4 b h s t) = _
  rw [score_apply, rowMaxSpread_apply]

/-- The row sum of the exponentials. -/
theorem rowSum_apply (x0 x1 : A) (b : Fin 2) (h : Fin 16) (s : Fin 2048) :
    val_main_v12 (F := Ideal) x0 x1 (ix3 b h s)
      = ∑ u : Fin 2048, Ideal.exp (Cert.Attn.score x0 x1 b h s u - Finset.univ.sup fun v : Fin 2048 => Cert.Attn.score x0 x1 b h s v) := by
  rw [val_main_v12_apply]
  rw [show val_main_cst_3 (F := Ideal) (Shape.Idx.first h_S_) = (0 : EReal) from Ideal.ofBits_zero_f32, zero_add]
  refine Finset.sum_congr rfl fun k _ => ?_
  have e : idx_main_v12 (ix3 b h s) k = ix4 b h s k := funext fun a => Fin.ext (by match a with | ⟨0, _⟩ => rfl | ⟨1, _⟩ => rfl | ⟨2, _⟩ => rfl | ⟨3, _⟩ => rfl)
  rw [e]
  exact expo_apply x0 x1 b h s k

/-- The reference's weights are the attention weights. -/
theorem weight_apply (x0 x1 : A) (b : Fin 2) (h : Fin 16) (s t : Fin 2048) :
    val_main_v15 (F := Ideal) x0 x1 (ix4 b h s t) = Cert.Attn.weight x0 x1 b h s t := by
  unfold Cert.Attn.weight Cert.Attn.softmaxRow
  refine (val_main_v15_apply x0 x1 _).trans ?_
  show Ideal.div (val_main_v11 (F := Ideal) x0 x1 (ix4 b h s t)) (val_main_v14 (F := Ideal) x0 x1 (ix4 b h s t)) = _
  have e14 : val_main_v14 (F := Ideal) x0 x1 (ix4 b h s t)
      = ∑ u : Fin 2048, Ideal.exp (Cert.Attn.score x0 x1 b h s u - Finset.univ.sup fun v : Fin 2048 => Cert.Attn.score x0 x1 b h s v) := by
    refine (val_main_v14_apply x0 x1 _).trans ((val_main_v13_apply x0 x1 _).trans ?_)
    have e : idx_main_v13 (idx_main_v14 (ix4 b h s t)) = ix3 b h s := funext fun a => Fin.ext (by match a with | ⟨0, _⟩ => rfl | ⟨1, _⟩ => rfl | ⟨2, _⟩ => rfl)
    rw [e]
    exact rowSum_apply x0 x1 b h s
  rw [expo_apply, e14]

/-- The reference's outputs are the attention outputs. -/
theorem attend_apply (x0 x1 x2 : A) (b : Fin 2) (h : Fin 16) (s : Fin 2048) (d : Fin 64) :
    val_main_v16 (F := Ideal) x0 x1 x2 (ix4 b h s d) = Cert.Attn.attend x0 x1 x2 b h s d := by
  unfold Cert.Attn.attend
  rw [val_main_v16_apply]
  refine Finset.sum_congr rfl fun k _ => ?_
  have el : lidx_main_v16 (ix4 b h s d) k = ix4 b h s k := funext fun a => Fin.ext (by match a with | ⟨0, _⟩ => rfl | ⟨1, _⟩ => rfl | ⟨2, _⟩ => rfl | ⟨3, _⟩ => rfl)
  have er : ridx_main_v16 (ix4 b h s d) k = ix4 b h k d := funext fun a => Fin.ext (by match a with | ⟨0, _⟩ => rfl | ⟨1, _⟩ => rfl | ⟨2, _⟩ => rfl | ⟨3, _⟩ => rfl)
  rw [el, er, weight_apply]

/-- The weights array of the reference. -/
theorem weights_eq (x0 x1 : A) : val_main_v15 (F := Ideal) x0 x1 = Cert.Attn.weightArr x0 x1 := funext fun i => by
  obtain ⟨b, h, s, t, rfl⟩ : ∃ (b : Fin 2) (h : Fin 16) (s t : Fin 2048), i = ix4 b h s t := ⟨i 0, i 1, i 2, i 3, eq_ix4 i⟩
  exact weight_apply x0 x1 b h s t

/-- The output array of the reference. -/
theorem outputs_eq (x0 x1 x2 : A) : val_main_v16 (F := Ideal) x0 x1 x2 = Cert.Attn.attendArr x0 x1 x2 := funext fun i => by
  obtain ⟨b, h, s, d, rfl⟩ : ∃ (b : Fin 2) (h : Fin 16) (s : Fin 2048) (d : Fin 64), i = ix4 b h s d := ⟨i 0, i 1, i 2, i 3, eq_ix4 i⟩
  exact attend_apply x0 x1 x2 b h s d

end Cert.Attn.Ref

end
-- ==== Proof.lean ====
/- Scaled dot-product attention with the weights returned: a kernel that walks the heads four query tiles at a
   time against a reference that works on whole arrays. Over the extended reals both compute, for every head, the
   weights softmax((Q Kᵀ) / 8) row by row and the outputs weights · V. The kernel's factor is the literal 0.125 and
   the reference's is 1 / sqrt 64, the same number; the kernel's copies of the keys and values kept in scratch
   across a head's tiles are the head's keys and values; a row's maximum is a supremum however it is folded; a
   contraction is a finite sum however it is tiled. The three frames are the generated ones (the reference's is
   its run with the results dropped), and nothing is rewritten between the printed kernel and its idealization. -/
import proofs.«164477_j73151882985559_2_alg».proof.Defs
import proofs.«164477_j73151882985559_2_alg».proof.Proof.Gen.Kernel
import proofs.«164477_j73151882985559_2_alg».proof.Proof.Gen.Kernel.Skeleton
import proofs.«164477_j73151882985559_2_alg».proof.Proof.Gen.Kernel.Launch
import proofs.«164477_j73151882985559_2_alg».proof.Proof.Gen.Kernel.Points
import proofs.«164477_j73151882985559_2_alg».proof.Proof.Gen.Kernel.Frame
import proofs.«164477_j73151882985559_2_alg».proof.Proof.Gen.KernelIdeal
import proofs.«164477_j73151882985559_2_alg».proof.Proof.Gen.KernelIdeal.Skeleton
import proofs.«164477_j73151882985559_2_alg».proof.Proof.Gen.KernelIdeal.Launch
import proofs.«164477_j73151882985559_2_alg».proof.Proof.Gen.KernelIdeal.Points
import proofs.«164477_j73151882985559_2_alg».proof.Proof.Gen.KernelIdeal.Frame
import proofs.«164477_j73151882985559_2_alg».proof.Proof.Gen.ReferenceIdeal
import proofs.«164477_j73151882985559_2_alg».proof.Proof.Gen.KernelIdeal.Value
import proofs.«164477_j73151882985559_2_alg».proof.Proof.Gen.ReferenceIdeal.Run
import proofs.«164477_j73151882985559_2_alg».proof.Proof.Gen.ReferenceIdeal.Read
import proofs.«164477_j73151882985559_2_alg».proof.Proof.Gen.Pre_finite_inputs
import proofs.«164477_j73151882985559_2_alg».proof.Proof.Blocks
import proofs.«164477_j73151882985559_2_alg».proof.Proof.Ref
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the three arguments both programs end with the attention outputs and the attention
    weights of those arguments. -/
theorem algebraic : Cert.algebraic_KernelIdeal_ReferenceIdeal := by
  intro m ρ m' ρ' _ hagree
  refine ⟨fun c => Cert.Attn.attendArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Attn.weightArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.Attn.Blocks.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v16_eq _ _ _).trans ((Cert.Attn.Ref.outputs_eq _ _ _).trans ?_))
    rw [(hagree c).1, (hagree c).2.1, (hagree c).2.2]
  · refine (h c).2.1.trans ((Cert.ReferenceIdeal.Read.val_main_v15_eq _ _).trans ((Cert.Attn.Ref.weights_eq _ _).trans ?_))
    rw [(hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
